-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x2048 : Shape := ⟨2, ![16384, 2048]⟩
abbrev S64x2048x64 : Shape := ⟨3, ![64, 2048, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S64x2048x64 : S_.BroadcastsInDim S64x2048x64 (![] : Fin 0 → Fin S64x2048x64.rank)
  reducesTo_S64x2048x64_S_d0_1_2 : S64x2048x64.ReducesTo [0, 1, 2] S_

variable [Facts]

def fn {F : FTy → Type} [FloatOps F] (main_arg0 : FVec F S16384x64 .f32) (main_arg1 : FVec F S16384x2048 .f32) (main_arg2 : FVec F S64x2048x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S64x2048x64 .f32 := Host.absf main_arg2
  let main_cst_2 : FVec F S_ .f32 := constant S_ .f32 0x7F800000#32
  let main_v10 : FVec F S64x2048x64 .f32 := broadcastInDim S64x2048x64 ![] bcast_S_S64x2048x64 main_cst_2
  let main_v11 : IVec S64x2048x64 1 := cmpf .olt main_v9 main_v10
  let main_c_3 : IVec S_ 1 := constantI S_ 1 1#1
  let main_v12 : IVec S_ 1 := (fun x v => Host.reduce IntOp.andi x v reducesTo_S64x2048x64_S_d0_1_2 h_S_) main_v11 main_c_3
  let main_v13 : IVec S_ 1 := andi main_v8 main_v12
  main_v13
-- ==== Kernel.lean ====
abbrev S16384x64 : Shape := ⟨2, ![16384, 64]⟩
abbrev S16384x2048 : Shape := ⟨2, ![16384, 2048]⟩
abbrev S64x2048x64 : Shape := ⟨3, ![64, 2048, 64]⟩
abbrev S64x2048 : Shape := ⟨2, ![64, 2048]⟩
abbrev S64x256x64 : Shape := ⟨3, ![64, 256, 64]⟩
abbrev S64x256 : Shape := ⟨2, ![64, 256]⟩
abbrev S1024x64 : Shape := ⟨2, ![1024, 64]⟩
abbrev S64x1024 : Shape := ⟨2, ![64, 1024]⟩
abbrev S1024x1024 : Shape := ⟨2, ![1024, 1024]⟩

abbrev nBuf : Space → Nat
  | .hbm => 5
  | .vmem => 12
  | .smem => 0
  | _ => 0

abbrev bufTy : (tb : Table) → Fin (tcTables nBuf tb) → BufTy
  | .hbm, ⟨0, _⟩ => ⟨S16384x64, .f32⟩
  | .hbm, ⟨1, _⟩ => ⟨S16384x2048, .f32⟩
  | .hbm, ⟨2, _⟩ => ⟨S64x2048x64, .f32⟩
  | .hbm, ⟨3, _⟩ => ⟨S64x2048, .f32⟩
  | .hbm, ⟨4, _⟩ => ⟨S16384x2048, .f32⟩
  | .local _ .vmem, ⟨0, _⟩ => ⟨S64x256x64, .f32⟩
  | .local _ .vmem, ⟨1, _⟩ => ⟨S64x256x64, .f32⟩
  | .local _ .vmem, ⟨2, _⟩ => ⟨S64x256, .f32⟩
  | .local _ .vmem, ⟨3, _⟩ => ⟨S64x256, .f32⟩
  | .local _ .vmem, ⟨4, _⟩ => ⟨S1024x64, .f32⟩
  | .local _ .vmem, ⟨5, _⟩ => ⟨S1024x64, .f32⟩
  | .local _ .vmem, ⟨6, _⟩ => ⟨S64x1024, .f32⟩
  | .local _ .vmem, ⟨7, _⟩ => ⟨S64x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S64x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S64x256x64_S64x256x64_0_0_0 : ∀ a, (![0, 0, 0] : Fin 3 → Nat) a + S64x256x64.size a ≤ S64x256x64.size a
  h_S64x256x64 : 0 < S64x256x64.numel
  reduces_S64x256x64_S64x256 : S64x256x64.Reduces [2] S64x256
  inb_S64x256_S64x256_0_0 : ∀ a, (![0, 0] : Fin 2 → Nat) a + S64x256.size a ≤ S64x256.size a
  h_S64x256 : 0 < S64x256.numel
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024x1024_S1024x1024_0_0 : ∀ a, (![0, 0] : Fin 2 → Nat) a + S1024x1024.size a ≤ S1024x1024.size a
  h_S1024x1024 : 0 < S1024x1024.numel
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256x64.size a ≤ S64x2048x64.size a
  hwx0_0 : ∀ i : grid0.Coords, EltTy.bits .f32 = 32 ∨ (Rect.block (s := S64x2048x64) S64x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x2048.size a
  hwx0_1 : ∀ i : grid0.Coords, EltTy.bits .f32 = 32 ∨ (Rect.block (s := S64x2048) S64x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S16384x64.size a
  hwx1_0 : ∀ i : grid1.Coords, EltTy.bits .f32 = 32 ∨ (Rect.block (s := S16384x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x1024.size a ≤ S64x2048.size a
  hwx1_1 : ∀ i : grid1.Coords, EltTy.bits .f32 = 32 ∨ (Rect.block (s := S64x2048) S64x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S16384x2048.size a
  hwx1_2 : ∀ i : grid1.Coords, EltTy.bits .f32 = 32 ∨ (Rect.block (s := S16384x2048) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S16384x2048.size a
  hwx1_3 : ∀ i : grid1.Coords, EltTy.bits .f32 = 32 ∨ (Rect.block (s := S16384x2048) S1024x1024.size (cc1_transform_3 i) (hinb1_3 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg2) S64x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S64x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x64 : Shape := ⟨2, ![16384, 64]⟩
abbrev S16384x2048 : Shape := ⟨2, ![16384, 2048]⟩
abbrev S64x2048x64 : Shape := ⟨3, ![64, 2048, 64]⟩
abbrev S_ : Shape := ⟨0, ![]⟩
abbrev S64x2048 : Shape := ⟨2, ![64, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x2048, .f32⟩
  | .hbm, ⟨2, _⟩ => ⟨S64x2048x64, .f32⟩
  | .hbm, ⟨3, _⟩ => ⟨S_, .f32⟩
  | .hbm, ⟨4, _⟩ => ⟨S64x2048, .f32⟩
  | .hbm, ⟨5, _⟩ => ⟨S16384x2048, .f32⟩
  | .hbm, ⟨6, _⟩ => ⟨S16384x2048, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  reducesTo_S64x2048x64_S64x2048_d2 : S64x2048x64.ReducesTo [2] S64x2048
  h_S_ : 0 < S_.numel
  dot_S16384x64_S64x2048_S16384x2048_1_0_0_1_n_n_wf : DotDims.WF S16384x64 S64x2048 S16384x2048 [1] [0] [0] [1] [] []

variable [Facts₀]

def dot_S16384x64_S64x2048_S16384x2048_1_0_0_1_n_n : DotDims S16384x64 S64x2048 S16384x2048 where
  lhsContracting := [1]
  rhsContracting := [0]
  lhsNonContracting := [0]
  rhsNonContracting := [1]
  lhsBatch := []
  rhsBatch := []
  wf := dot_S16384x64_S64x2048_S16384x2048_1_0_0_1_n_n_wf

class Facts : Prop extends Facts₀ where

variable [Facts]
-- ==== Proof.StageSpec.lean ====
/-
  The two stages of the computation as whole-array functions on the extended reals, stated once for any extents.

  Stage one sums a rank-3 array over its last axis: entry (i, j) of `sumLast w` is Σ_k w[i, j, k].
  Stage two contracts a matrix with that sum and gates the product entrywise: entry (b, j) of `gated x v y` is
  (Σ_i x[b, i] · v[i, j]) · y[b, j].

  Both are plain finite sums and products of extended reals; nothing here needs the entries to be finite, because the
  kernel and the reference add and multiply the same terms in the same arrangement (no factor is moved across a sum).
-/
import Idealize.ShloMosaic.PureOps.Ideal
import Idealize.ShloMosaic.Lib.ValueIdx

noncomputable section

open scoped BigOperators

namespace Cert.Stages

open Idealize.ShloMosaic Idealize.ShloMosaic.ValueIdx

/-- A rank-3 array summed over its last axis: entry (i, j) is Σ_k w[i, j, k]. -/
def sumLast {I J K : Nat} (w : (⟨3, ![I, J, K]⟩ : Shape).Idx → EReal) : (⟨2, ![I, J]⟩ : Shape).Idx → EReal :=
  fun i => ∑ k : Fin K, w (ix3 (i 0) (i 1) k)

/-- The matrix product x · v gated entrywise by y: entry (b, j) is (Σ_i x[b, i] · v[i, j]) · y[b, j]. -/
def gated {B I J : Nat} (x : (⟨2, ![B, I]⟩ : Shape).Idx → EReal) (v : (⟨2, ![I, J]⟩ : Shape).Idx → EReal)
    (y : (⟨2, ![B, J]⟩ : Shape).Idx → EReal) : (⟨2, ![B, J]⟩ : Shape).Idx → EReal :=
  fun i => (∑ k : Fin I, x (ix2 (i 0) k) * v (ix2 k (i 1))) * y i

theorem sumLast_apply {I J K : Nat} (w : (⟨3, ![I, J, K]⟩ : Shape).Idx → EReal) (i : (⟨2, ![I, J]⟩ : Shape).Idx) :
    sumLast w i = ∑ k : Fin K, w (ix3 (i 0) (i 1) k) := rfl

theorem gated_apply {B I J : Nat} (x : (⟨2, ![B, I]⟩ : Shape).Idx → EReal) (v : (⟨2, ![I, J]⟩ : Shape).Idx → EReal)
    (y : (⟨2, ![B, J]⟩ : Shape).Idx → EReal) (i : (⟨2, ![B, J]⟩ : Shape).Idx) :
    gated x v y i = (∑ k : Fin I, x (ix2 (i 0) k) * v (ix2 k (i 1))) * y i := rfl

end Cert.Stages

end
-- ==== Proof.RefValue.lean ====
/-
  The reference's result as the stage functions of `StageSpec`: the host's sum of the weights over the last axis
  starts from the zero word, which is the extended real 0 and drops out; its general product contracts the one shared
  axis; its last line multiplies entrywise. So the reference computes `gated x (sumLast w) y`.
-/
import proofs.«163116_j54065048322517_2_alg».proof.Proof.Gen.ReferenceIdeal.Read
import proofs.«163116_j54065048322517_2_alg».proof.Proof.StageSpec
import Idealize.ShloMosaic.PureOps.Ideal.Laws
import Idealize.ShloMosaic.Lib.ValueIdx

noncomputable section

open scoped BigOperators

namespace Cert.ReferenceIdeal.Stage

open Cert.ReferenceIdeal Cert.ReferenceIdeal.Read Idealize.ShloMosaic Idealize.ShloMosaic.ValueIdx Cert.Stages

/-- The host's sum over the last axis, read at entry (p, q), is Σ_k w[p, q, k]. -/
theorem weights_sum (w : FVec Ideal S64x2048x64 .f32) (p : Fin 64) (q : Fin 2048) :
    val_main_v0 (F := Ideal) w (ix2 p q) = sumLast w (ix2 p q) := by
  rw [val_main_v0_apply, val_main_cst_apply]
  show Ideal.ofBits .f32 0x00000000#32 + ∑ k : Fin 64, w (idx_main_v0 (ix2 p q) k) = ∑ k : Fin 64, w (ix3 p q k)
  rw [Ideal.ofBits_zero_f32, zero_add]
  refine Finset.sum_congr rfl fun k _ => congrArg w (funext fun a => Fin.ext ?_)
  match a with
  | ⟨0, _⟩ => rfl
  | ⟨1, _⟩ => rfl
  | ⟨2, _⟩ => rfl

/-- The reference's result is the gated product of the first argument with the summed weights. -/
theorem reference_value (x : FVec Ideal S16384x64 .f32) (y : FVec Ideal S16384x2048 .f32) (w : FVec Ideal S64x2048x64 .f32) :
    val_main_v2 (F := Ideal) x y w = gated x (sumLast w) y := by
  funext i
  obtain ⟨p, q, rfl⟩ : ∃ (p : Fin 16384) (q : Fin 2048), i = ix2 p q := ⟨i 0, i 1, eq_ix2 i⟩
  rw [val_main_v2_apply, val_main_v1_apply]
  show (∑ k : Fin 64, x (lidx_main_v1 (ix2 p q) k) * val_main_v0 (F := Ideal) w (ridx_main_v1 (ix2 p q) k)) * y (ix2 p q)
      = (∑ k : Fin 64, x (ix2 p k) * sumLast w (ix2 k q)) * y (ix2 p q)
  refine congrArg (· * y (ix2 p q)) (Finset.sum_congr rfl fun k _ => ?_)
  have el : lidx_main_v1 (ix2 p q) k = ix2 p k := funext fun a => Fin.ext (by
    match a with
    | ⟨0, _⟩ => rfl
    | ⟨1, _⟩ => rfl)
  have er : ridx_main_v1 (ix2 p q) k = ix2 k q := funext fun a => Fin.ext (by
    match a with
    | ⟨0, _⟩ => rfl
    | ⟨1, _⟩ => rfl)
  rw [el, er, weights_sum]

end Cert.ReferenceIdeal.Stage

end
-- ==== Proof.Payloads.lean ====
/-
  What each kernel body computes from its loaded blocks, read as the stage functions of `StageSpec`.

  The first body sums its block of the weights over the last axis (a lane reduction from the zero word, which on the
  extended reals is the plain sum over that axis); the second narrows its two matmul operands to bf16 (the identity on
  extended reals), multiplies them into a zero accumulator (the plain sum of products over the contracted axis) and
  multiplies the product entrywise by its third block.
-/
import proofs.«163116_j54065048322517_2_alg».proof.Proof.Gen.KernelIdeal.Skeleton
import proofs.«163116_j54065048322517_2_alg».proof.Proof.StageSpec
import Idealize.ShloMosaic.PureOps.Ideal.Laws
import Idealize.ShloMosaic.Lib.Pipeline.Value
import Idealize.ShloMosaic.Lib.ValueIdx

noncomputable section

open scoped BigOperators

namespace Cert.KernelIdeal.Stage

open Cert.KernelIdeal Cert.KernelIdeal.Gen Idealize.ShloMosaic Idealize.ShloMosaic.ValueIdx Cert.Stages

/-- The first body's stored value is its block summed over the last axis. -/
theorem reduce_payload (x : Vec Ideal S64x256x64 .f32) : k0_pay1 (F := Ideal) x = sumLast x := by
  funext j
  unfold k0_pay1
  refine (Ideal.multiReduction_add_single x _ _ _ _ j).trans ?_
  refine Finset.sum_congr rfl fun k _ => congrArg x (funext fun a => Fin.ext ?_)
  match a with
  | ⟨0, _⟩ => rfl
  | ⟨1, _⟩ => rfl
  | ⟨2, _⟩ => rfl

/-! The matmul's operand indices at an output entry (r, c) and a contraction index: the left operand is read at
    (r, k), the right at (k, c). -/

theorem lhs_row (j : S1024x1024.Idx) (q : dot_S1024x64_S64x1024_S1024x1024_1_0_0_1_n_n.contr.Idx) :
    (dot_S1024x64_S64x1024_S1024x1024_1_0_0_1_n_n.lhsIdx j q 0).val = (j 0).val := by
  unfold DotDims.lhsIdx
  rw [dif_neg (show ¬(0 : Fin S1024x64.rank) ∈ dot_S1024x64_S64x1024_S1024x1024_1_0_0_1_n_n.lhsBatch by decide),
    dif_pos (show (0 : Fin S1024x64.rank) ∈ dot_S1024x64_S64x1024_S1024x1024_1_0_0_1_n_n.lhsNonContracting by decide)]
  rfl
theorem lhs_contr (j : S1024x1024.Idx) (q : dot_S1024x64_S64x1024_S1024x1024_1_0_0_1_n_n.contr.Idx) :
    (dot_S1024x64_S64x1024_S1024x1024_1_0_0_1_n_n.lhsIdx j q 1).val = (q ⟨0, by decide⟩).val :=
  dot_S1024x64_S64x1024_S1024x1024_1_0_0_1_n_n.lhsIdx_val_of_single rfl j q
theorem rhs_contr (j : S1024x1024.Idx) (q : dot_S1024x64_S64x1024_S1024x1024_1_0_0_1_n_n.contr.Idx) :
    (dot_S1024x64_S64x1024_S1024x1024_1_0_0_1_n_n.rhsIdx j q 0).val = (q ⟨0, by decide⟩).val :=
  dot_S1024x64_S64x1024_S1024x1024_1_0_0_1_n_n.rhsIdx_val_of_single rfl j q
theorem rhs_col (j : S1024x1024.Idx) (q : dot_S1024x64_S64x1024_S1024x1024_1_0_0_1_n_n.contr.Idx) :
    (dot_S1024x64_S64x1024_S1024x1024_1_0_0_1_n_n.rhsIdx j q 1).val = (j 1).val := by
  unfold DotDims.rhsIdx
  rw [dif_neg (show ¬(1 : Fin S64x1024.rank) ∈ dot_S1024x64_S64x1024_S1024x1024_1_0_0_1_n_n.rhsBatch by decide),
    dif_pos (show (1 : Fin S64x1024.rank) ∈ dot_S1024x64_S64x1024_S1024x1024_1_0_0_1_n_n.rhsNonContracting by decide)]
  rfl

/-- The matmul of two blocks into the zero accumulator, at entry (p, q): Σ_k l[p, k] · r[k, q]. -/
theorem matmul_block_apply (l : FVec Ideal S1024x64 .bf16) (r : FVec Ideal S64x1024 .bf16) (p q : Fin 1024) :
    matmul (F := Ideal) dot_S1024x64_S64x1024_S1024x1024_1_0_0_1_n_n none l r (constant (F := Ideal) S1024x1024 .f32 0x00000000#32) (ix2 p q)
      = ∑ k : Fin 64, l (ix2 p k) * r (ix2 k q) := by
  simp only [matmul]
  rw [Ideal.matmul_constant_zero_apply,
    ← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 p q) ((contrEquiv1 dot_S1024x64_S64x1024_S1024x1024_1_0_0_1_n_n 64 rfl rfl).symm k)
      = ix2 p k := funext fun a => Fin.ext (by
    match a with
    | ⟨0, _⟩ => exact lhs_row _ _
    | ⟨1, _⟩ => exact (lhs_contr _ _).trans hk)
  have er : dot_S1024x64_S64x1024_S1024x1024_1_0_0_1_n_n.rhsIdx (ix2 p q) ((contrEquiv1 dot_S1024x64_S64x1024_S1024x1024_1_0_0_1_n_n 64 rfl rfl).symm k)
      = ix2 k q := funext fun a => Fin.ext (by
    match a with
    | ⟨0, _⟩ => exact (rhs_contr _ _).trans hk
    | ⟨1, _⟩ => exact rhs_col _ _)
  rw [el, er]

/-- The second body's stored value is the product of its first two blocks gated by the third. -/
theorem bilinear_payload (x0 : Vec Ideal S1024x64 .f32) (x1 : Vec Ideal S64x1024 .f32) (x2 : Vec Ideal S1024x1024 .f32) :
    k1_pay1 (F := Ideal) x0 x1 x2 = gated x0 x1 x2 := by
  funext j
  obtain ⟨p, q, rfl⟩ : ∃ (p : Fin 1024) (q : Fin 1024), j = ix2 p q := ⟨j 0, j 1, eq_ix2 j⟩
  unfold k1_pay1
  show matmul (F := Ideal) dot_S1024x64_S64x1024_S1024x1024_1_0_0_1_n_n none
      (truncf (F := Ideal) .bf16 x0 bitsLt_bf16_f32)
      (truncf (F := Ideal) .bf16 (shapeCast S64x1024 x1 shapeCasts_S64x1024_S64x1024) bitsLt_bf16_f32)
      (constant (F := Ideal) S1024x1024 .f32 0x00000000#32) (ix2 p q) * x2 (ix2 p q)
    = (∑ k : Fin 64, x0 (ix2 p k) * x1 (ix2 k q)) * x2 (ix2 p q)
  refine congrArg (· * x2 (ix2 p q)) ?_
  refine (matmul_block_apply _ _ p q).trans ?_
  rw [shapeCast_self]
  rfl

end Cert.KernelIdeal.Stage

end
-- ==== Proof.SumBlocks.lean ====
/-
  The first stage's result array, whole. The grid's point t works on columns 256·t … 256·t + 255 of the weights' middle
  axis: its input block is those columns of the weights (all rows, all of the last axis) and its output block the same
  columns of the result (all rows). So what point t writes back is block t of `sumLast` of the weights, the eight
  column blocks tile the result, and the array ends holding `sumLast` of the weights as the stage found them.
-/
import proofs.«163116_j54065048322517_2_alg».proof.Proof.Gen.KernelIdeal.Frame
import proofs.«163116_j54065048322517_2_alg».proof.Proof.Payloads
import Idealize.ShloMosaic.Lib.Pipeline.Value

set_option maxRecDepth 16384

noncomputable section

open scoped BigOperators

namespace Cert.KernelIdeal.Stage

open Cert.KernelIdeal Cert.KernelIdeal.Gen Idealize.ShloMosaic Idealize.ShloMosaic.TcCoe Idealize.SL.Sem
open Idealize.ShloMosaic.ValueIdx Cert.Stages
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The index maps of the first stage at point t: the weights' block index is (0, t, 0), the result's (0, t). -/
theorem sum_index : ∀ t : Fin cfg0.N, win0_0.index t (0 : Fin 3) = 0 ∧ win0_0.index t (1 : Fin 3) = t.val
    ∧ win0_0.index t (2 : Fin 3) = 0 ∧ win0_1.index t (0 : Fin 2) = 0 ∧ win0_1.index t (1 : Fin 2) = t.val :=
  (by decide +kernel : ∀ t : Fin grid0.N, _)

/-- The weights' block at point t, read at (a, b, k), is the weights at (a, 256·t + b, k). -/
theorem weights_block_apply (c : Dev nD) (t : Fin cfg0.N) (y : S64x256x64.Idx) (i : S64x2048x64.Idx)
    (h0 : (i 0).val = (y 0).val) (h1 : (i 1).val = t.val * 256 + (y 1).val) (h2 : (i 2).val = (y 2).val) :
    (iblk0 V c 0 t : Vec Ideal S64x256x64 .f32) y = (V c main_arg2 : S64x2048x64.Idx → EReal) i := by
  obtain ⟨e0, e1, e2, -, -⟩ := sum_index t
  unfold iblk0
  rw [View.read_apply]
  show (V c main_arg2 : S64x2048x64.Idx → EReal) _ = (V c main_arg2 : S64x2048x64.Idx → EReal) i
  refine congrArg (V c main_arg2 : S64x2048x64.Idx → EReal) (funext fun a => Fin.ext ?_)
  match a with
  | ⟨0, _⟩ => show win0_0.index t (0 : Fin 3) * 64 + 1 * (y 0).val = (i 0).val; omega
  | ⟨1, _⟩ => show win0_0.index t (1 : Fin 3) * 256 + 1 * (y 1).val = (i 1).val; omega
  | ⟨2, _⟩ => show win0_0.index t (2 : Fin 3) * 64 + 1 * (y 2).val = (i 2).val; omega

/-- What point t writes back is block t of the weights summed over the last axis. -/
theorem sum_flushed (c : Dev nD) (t : Fin cfg0.N) :
    (dat0 V c).flushed 1 t = ((cfg0.win 1).blk t).view.read (Elt Ideal) (sumLast (V c main_arg2 : S64x2048x64.Idx → EReal)) := by
  show (cfg0.win 1).cut (grid0.coords t) ((dat0 V c).after 1 t) = _
  rw [after0_1]
  unfold out0_1
  rw [View.canon_unit_zero zeros2]
  simp only [View.ld_unit_zero (S := S64x256x64) zeros3]
  obtain ⟨-, -, -, e3, e4⟩ := sum_index t
  funext j
  show k0_pay1 (F := Ideal) (iblk0 V c 0 t) j = sumLast (V c main_arg2 : S64x2048x64.Idx → EReal) (((cfg0.win 1).blk t).view.emb j)
  refine (congrFun (reduce_payload (iblk0 V c 0 t)) j).trans ?_
  unfold sumLast
  refine Finset.sum_congr rfl fun k _ => ?_
  refine weights_block_apply V c t _ _ ?_ ?_ ?_
  · show win0_1.index t (0 : Fin 2) * 64 + 1 * (j 0).val = (j 0).val; omega
  · show win0_1.index t (1 : Fin 2) * 256 + 1 * (j 1).val = t.val * 256 + (j 1).val; omega
  · rfl

/-- An entry of the result is in point t's block iff each coordinate is in the block's range on its axis. -/
theorem sum_mem_blk (t : Fin cfg0.N) (i : S64x2048.Idx) :
    i ∈ ((cfg0.win 1).blk t).view.set ↔ ∀ a : Fin 2, win0_1.index t a * S64x256.size a ≤ (i a).val ∧ (i a).val < win0_1.index t a * S64x256.size a + S64x256.size a := by
  show i ∈ ((View.whole main_v0).slice (win0_1.rect t)).set ↔ _
  rw [View.set_slice_whole, Rect.mem_set_unit]
  exact Iff.rfl

/-- Every entry (r, s) of the result is in the block of point s / 256. -/
theorem sum_cover (i : S64x2048.Idx) :
    ∃ t : Fin cfg0.N, (cfg0.win 1).flush t = true ∧ i ∈ ((cfg0.win 1).blk t).view.set := by
  have h0 : (i 0).val < 64 := (i 0).isLt
  have h1 : (i 1).val < 2048 := (i 1).isLt
  have hN : cfg0.N = 8 := N_0
  have ht : (i 1).val / 256 < cfg0.N := by rw [hN]; omega
  obtain ⟨-, -, -, e3, e4⟩ := sum_index ⟨(i 1).val / 256, ht⟩
  have e4' : win0_1.index ⟨(i 1).val / 256, ht⟩ (1 : Fin 2) = (i 1).val / 256 := e4
  refine ⟨⟨(i 1).val / 256, ht⟩, flush0_1 _, ?_⟩
  rw [sum_mem_blk]
  intro a
  match a with
  | ⟨0, _⟩ => show win0_1.index ⟨(i 1).val / 256, ht⟩ (0 : Fin 2) * 64 ≤ (i 0).val ∧ (i 0).val < win0_1.index ⟨(i 1).val / 256, ht⟩ (0 : Fin 2) * 64 + 64; omega
  | ⟨1, _⟩ => show win0_1.index ⟨(i 1).val / 256, ht⟩ (1 : Fin 2) * 256 ≤ (i 1).val ∧ (i 1).val < win0_1.index ⟨(i 1).val / 256, ht⟩ (1 : Fin 2) * 256 + 256; omega

/-- The first stage's result array after its run: the weights, as the stage found them, summed over the last axis. -/
theorem sum_final (c : Dev nD) :
    (dat0 V c).arrAt 1 cfg0.N = sumLast (V c main_arg2 : S64x2048x64.Idx → EReal) :=
  (dat0 V c).arrAt_eq_of_cover 1 _ (fun t _ => sum_flushed V c t) sum_cover

end Cert.KernelIdeal.Stage

end
-- ==== Proof.ProductBlocks.lean ====
/-
  The second stage's result array, whole. The grid is 16 × 2: point t works on rows 1024·(t / 2) … + 1023 and columns
  1024·(t % 2) … + 1023 of the result. Its blocks are those rows of the first argument (all 64 columns), those columns
  of the summed weights (all 64 rows), and that tile of the second argument; its output block is the same tile of the
  result. An entry (r, s) of the gated product reads row r of the first argument, column s of the summed weights and
  entry (r, s) of the second argument — all inside point t's blocks when (r, s) is inside its tile. So what point t
  writes back is tile t of `gated` of the three arrays, the 32 tiles cover the result, and the array ends holding `gated`
  of the arrays as the stage found them.
-/
import proofs.«163116_j54065048322517_2_alg».proof.Proof.Gen.KernelIdeal.Frame
import proofs.«163116_j54065048322517_2_alg».proof.Proof.Payloads
import Idealize.ShloMosaic.Lib.Pipeline.Value

set_option maxRecDepth 16384

noncomputable section

open scoped BigOperators

namespace Cert.KernelIdeal.Stage

open Cert.KernelIdeal Cert.KernelIdeal.Gen Idealize.ShloMosaic Idealize.ShloMosaic.TcCoe Idealize.SL.Sem
open Idealize.ShloMosaic.ValueIdx Cert.Stages
open Idealize.ShloMosaic.Pipeline (Dat)

variable (V : (c : Dev nD) → (b : Ref sig .tc) → Buf (Elt Ideal) ((c : Thread nD τ).loc b))

theorem zeros2' : (![0, 0] : Fin 2 → Nat) = fun _ => 0 := funext fun a => by fin_cases a <;> rfl

/-- The index maps of the second stage at point t: row block t / 2, column block t % 2. -/
theorem product_index : ∀ t : Fin cfg1.N,
    win1_0.index t (0 : Fin 2) = t.val / 2 ∧ win1_0.index t (1 : Fin 2) = 0
    ∧ win1_1.index t (0 : Fin 2) = 0 ∧ win1_1.index t (1 : Fin 2) = t.val % 2
    ∧ win1_2.index t (0 : Fin 2) = t.val / 2 ∧ win1_2.index t (1 : Fin 2) = t.val % 2
    ∧ win1_3.index t (0 : Fin 2) = t.val / 2 ∧ win1_3.index t (1 : Fin 2) = t.val % 2 :=
  (by decide +kernel : ∀ t : Fin grid1.N, _)

/-- The first argument's block at point t, read at (a, k), is the argument at (1024·(t / 2) + a, k). -/
theorem lhs_block_apply (c : Dev nD) (t : Fin cfg1.N) (y : S1024x64.Idx) (i : S16384x64.Idx)
    (h0 : (i 0).val = t.val / 2 * 1024 + (y 0).val) (h1 : (i 1).val = (y 1).val) :
    (iblk1 V c 0 t : Vec Ideal S1024x64 .f32) y = (V c main_arg0 : S16384x64.Idx → EReal) i := by
  obtain ⟨e0, e1, -, -, -, -, -, -⟩ := product_index t
  unfold iblk1
  rw [View.read_apply]
  show (V c main_arg0 : S16384x64.Idx → EReal) _ = (V c main_arg0 : S16384x64.Idx → EReal) i
  refine congrArg (V c main_arg0 : S16384x64.Idx → EReal) (funext fun a => Fin.ext ?_)
  match a with
  | ⟨0, _⟩ => show win1_0.index t (0 : Fin 2) * 1024 + 1 * (y 0).val = (i 0).val; omega
  | ⟨1, _⟩ => show win1_0.index t (1 : Fin 2) * 64 + 1 * (y 1).val = (i 1).val; omega

/-- The summed weights' block at point t, read at (k, b), is that array at (k, 1024·(t % 2) + b). -/
theorem rhs_block_apply (c : Dev nD) (t : Fin cfg1.N) (y : S64x1024.Idx) (i : S64x2048.Idx)
    (h0 : (i 0).val = (y 0).val) (h1 : (i 1).val = t.val % 2 * 1024 + (y 1).val) :
    (iblk1 V c 1 t : Vec Ideal S64x1024 .f32) y = (V c main_v0 : S64x2048.Idx → EReal) i := by
  obtain ⟨-, -, e2, e3, -, -, -, -⟩ := product_index t
  unfold iblk1
  rw [View.read_apply]
  show (V c main_v0 : S64x2048.Idx → EReal) _ = (V c main_v0 : S64x2048.Idx → EReal) i
  refine congrArg (V c main_v0 : S64x2048.Idx → EReal) (funext fun a => Fin.ext ?_)
  match a with
  | ⟨0, _⟩ => show win1_1.index t (0 : Fin 2) * 64 + 1 * (y 0).val = (i 0).val; omega
  | ⟨1, _⟩ => show win1_1.index t (1 : Fin 2) * 1024 + 1 * (y 1).val = (i 1).val; omega

/-- The second argument's block at point t, read at (a, b), is the argument at (1024·(t / 2) + a, 1024·(t % 2) + b). -/
theorem gate_block_apply (c : Dev nD) (t : Fin cfg1.N) (y : S1024x1024.Idx) (i : S16384x2048.Idx)
    (h0 : (i 0).val = t.val / 2 * 1024 + (y 0).val) (h1 : (i 1).val = t.val % 2 * 1024 + (y 1).val) :
    (iblk1 V c 2 t : Vec Ideal S1024x1024 .f32) y = (V c main_arg1 : S16384x2048.Idx → EReal) i := by
  obtain ⟨-, -, -, -, e4, e5, -, -⟩ := product_index t
  unfold iblk1
  rw [View.read_apply]
  show (V c main_arg1 : S16384x2048.Idx → EReal) _ = (V c main_arg1 : S16384x2048.Idx → EReal) i
  refine congrArg (V c main_arg1 : S16384x2048.Idx → EReal) (funext fun a => Fin.ext ?_)
  match a with
  | ⟨0, _⟩ => show win1_2.index t (0 : Fin 2) * 1024 + 1 * (y 0).val = (i 0).val; omega
  | ⟨1, _⟩ => show win1_2.index t (1 : Fin 2) * 1024 + 1 * (y 1).val = (i 1).val; omega

/-- What point t writes back is tile t of the gated product of the three arrays as the stage found them. -/
theorem product_flushed (c : Dev nD) (t : Fin cfg1.N) :
    (dat1 V c).flushed 3 t = ((cfg1.win 3).blk t).view.read (Elt Ideal)
      (gated (V c main_arg0 : S16384x64.Idx → EReal) (V c main_v0 : S64x2048.Idx → EReal) (V c main_arg1 : S16384x2048.Idx → EReal)) := by
  show (cfg1.win 3).cut (grid1.coords t) ((dat1 V c).after 3 t) = _
  rw [after1_3]
  unfold out1_3
  rw [View.canon_unit_zero zeros2']
  simp only [View.ld_unit_zero (S := S1024x64) zeros2', View.ld_unit_zero (S := S64x1024) zeros2', View.ld_unit_zero (S := S1024x1024) zeros2']
  obtain ⟨-, -, -, -, -, -, e6, e7⟩ := product_index t
  funext j
  show k1_pay1 (F := Ideal) (iblk1 V c 0 t) (iblk1 V c 1 t) (iblk1 V c 2 t) j
    = gated (V c main_arg0 : S16384x64.Idx → EReal) (V c main_v0 : S64x2048.Idx → EReal) (V c main_arg1 : S16384x2048.Idx → EReal)
        (((cfg1.win 3).blk t).view.emb j)
  refine (congrFun (bilinear_payload (iblk1 V c 0 t) (iblk1 V c 1 t) (iblk1 V c 2 t)) j).trans ?_
  unfold gated
  have hr : ((((cfg1.win 3).blk t).view.emb j) 0).val = t.val / 2 * 1024 + (j 0).val := by
    show win1_3.index t (0 : Fin 2) * 1024 + 1 * (j 0).val = _; omega
  have hc : ((((cfg1.win 3).blk t).view.emb j) 1).val = t.val % 2 * 1024 + (j 1).val := by
    show win1_3.index t (1 : Fin 2) * 1024 + 1 * (j 1).val = _; omega
  refine congrArg₂ (· * ·) (Finset.sum_congr rfl fun k _ => congrArg₂ (· * ·) ?_ ?_) ?_
  · exact lhs_block_apply V c t _ _ hr rfl
  · exact rhs_block_apply V c t _ _ rfl hc
  · exact gate_block_apply V c t _ _ hr hc

/-- An entry of the result is in point t's tile iff each coordinate is in the tile's range on its axis. -/
theorem product_mem_blk (t : Fin cfg1.N) (i : S16384x2048.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v1).slice (win1_3.rect t)).set ↔ _
  rw [View.set_slice_whole, Rect.mem_set_unit]
  exact Iff.rfl

/-- Every entry (r, s) of the result is in the tile of point 2·(r / 1024) + s / 1024. -/
theorem product_cover (i : S16384x2048.Idx) :
    ∃ t : Fin cfg1.N, (cfg1.win 3).flush t = true ∧ i ∈ ((cfg1.win 3).blk t).view.set := by
  have h0 : (i 0).val < 16384 := (i 0).isLt
  have h1 : (i 1).val < 2048 := (i 1).isLt
  have hN : cfg1.N = 32 := N_1
  have ht : (i 0).val / 1024 * 2 + (i 1).val / 1024 < cfg1.N := by rw [hN]; omega
  obtain ⟨-, -, -, -, -, -, e6, e7⟩ := product_index ⟨(i 0).val / 1024 * 2 + (i 1).val / 1024, ht⟩
  have e6' : win1_3.index ⟨(i 0).val / 1024 * 2 + (i 1).val / 1024, ht⟩ (0 : Fin 2) = ((i 0).val / 1024 * 2 + (i 1).val / 1024) / 2 := e6
  have e7' : win1_3.index ⟨(i 0).val / 1024 * 2 + (i 1).val / 1024, ht⟩ (1 : Fin 2) = ((i 0).val / 1024 * 2 + (i 1).val / 1024) % 2 := e7
  refine ⟨⟨(i 0).val / 1024 * 2 + (i 1).val / 1024, ht⟩, flush1_3 _, ?_⟩
  rw [product_mem_blk]
  intro a
  match a with
  | ⟨0, _⟩ =>
    show win1_3.index ⟨(i 0).val / 1024 * 2 + (i 1).val / 1024, ht⟩ (0 : Fin 2) * 1024 ≤ (i 0).val
      ∧ (i 0).val < win1_3.index ⟨(i 0).val / 1024 * 2 + (i 1).val / 1024, ht⟩ (0 : Fin 2) * 1024 + 1024
    omega
  | ⟨1, _⟩ =>
    show win1_3.index ⟨(i 0).val / 1024 * 2 + (i 1).val / 1024, ht⟩ (1 : Fin 2) * 1024 ≤ (i 1).val
      ∧ (i 1).val < win1_3.index ⟨(i 0).val / 1024 * 2 + (i 1).val / 1024, ht⟩ (1 : Fin 2) * 1024 + 1024
    omega

/-- The second stage's result array after its run: the gated product of the three arrays as the stage found them. -/
theorem product_final (c : Dev nD) :
    (dat1 V c).arrAt 3 cfg1.N
      = gated (V c main_arg0 : S16384x64.Idx → EReal) (V c main_v0 : S64x2048.Idx → EReal) (V c main_arg1 : S16384x2048.Idx → EReal) :=
  (dat1 V c).arrAt_eq_of_cover 3 _ (fun t _ => product_flushed V c t) product_cover

end Cert.KernelIdeal.Stage

end
-- ==== Proof.StagesRun.lean ====
/-
  The whole run, read. @main is the two stages one after the other. Every weakly fair execution terminates with each
  unscoped buffer at its contents after the second stage; in particular the result buffer holds what the second stage's
  write-backs leave. The second stage finds the two arguments it reads as launched (the first stage writes neither) and
  the summed-weights buffer as the first stage left it, which is `sumLast` of the weights as launched. So the result is
  `gated x (sumLast w) y` of the launch contents x, y, w of the three arguments, and the arguments end as launched.
-/
import proofs.«163116_j54065048322517_2_alg».proof.Proof.Gen.KernelIdeal.Frame
import proofs.«163116_j54065048322517_2_alg».proof.Proof.SumBlocks
import proofs.«163116_j54065048322517_2_alg».proof.Proof.ProductBlocks

set_option maxRecDepth 16384

noncomputable section

namespace Cert.KernelIdeal.Stage

open Cert.KernelIdeal Cert.KernelIdeal.Gen Cert.Stages
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Launch

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at its contents after the
    second stage and the arguments as launched: the launch over the two stages' segments, the last thread state read
    against the final state at the result buffer as well as at the arguments. -/
theorem run_boundary : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Launch

variable (m : (ℓ : Loc nD τ sig) → Buf (Elt Ideal) ℓ) (ρ : Dev nD → PrngReg)

/-- The second stage finds the first argument as launched. -/
theorem entry_arg0 (c : Dev nD) : V1 m ρ c main_arg0 = m ((c : Thread nD τ).loc main_arg0) :=
  (W1_of_ne m ρ c main_arg0 (by decide)).trans rfl

/-- The second stage finds the second argument as launched. -/
theorem entry_arg1 (c : Dev nD) : V1 m ρ c main_arg1 = m ((c : Thread nD τ).loc main_arg1) :=
  (W1_of_ne m ρ c main_arg1 (by decide)).trans rfl

/-- The second stage finds the summed-weights buffer at the launch weights summed over the last axis. -/
theorem entry_sum (c : Dev nD) :
    (V1 m ρ c main_v0 : S64x2048.Idx → EReal) = sumLast (m ((c : Thread nD τ).loc main_arg2) : S64x2048x64.Idx → EReal) :=
  (W1_arr m ρ c 1).trans (sum_final (V0 m ρ) c)

/-- The result buffer after the second stage: the gated product of the launch arguments. -/
theorem result_value (c : Dev nD) :
    (W2 m ρ c (Proc.devRef .tc main_v1) : S16384x2048.Idx → EReal)
      = gated (m ((c : Thread nD τ).loc main_arg0) : S16384x64.Idx → EReal)
          (sumLast (m ((c : Thread nD τ).loc main_arg2) : S64x2048x64.Idx → EReal))
          (m ((c : Thread nD τ).loc main_arg1) : S16384x2048.Idx → EReal) := by
  refine (W2_arr m ρ c 3).trans ((product_final (V1 m ρ) c).trans ?_)
  rw [entry_arg0 m ρ c, entry_arg1 m ρ c, entry_sum m ρ c]

/-- The run, read: the result at the gated product of the launch arguments, the arguments unchanged. -/
theorem run : θ_run defs (onTc (τ := τ) (main (F := Ideal))) ⟨m, fun _ => 0, ρ⟩ (fun r => ∀ c : Dev nD,
      r.2.mem ((c.tc : Thread nD τ).loc main_v1)
        = gated (m ((c.tc : Thread nD τ).loc main_arg0) : S16384x64.Idx → EReal)
            (sumLast (m ((c.tc : Thread nD τ).loc main_arg2) : S64x2048x64.Idx → EReal))
            (m ((c.tc : Thread nD τ).loc main_arg1) : S16384x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_value m ρ c), (h c).2⟩) (run_boundary m ρ)

end Cert.KernelIdeal.Stage

end
-- ==== Proof.lean ====
/-
  The kernel computes out[b, j] = (Σ_i x[b, i] · (Σ_k w[i, j, k])) · y[b, j] in two stages: the first sums the weights w
  over their last axis, eight column blocks at a time; the second multiplies x by that sum on the matrix unit (operands
  narrowed to bf16, which on the extended reals changes nothing; accumulator zero) and gates the product entrywise by y,
  a 16 × 2 grid of tiles. The reference computes the same expression with the host's sum (from the zero word, which is
  the extended real 0), general product and entrywise multiply.

  On the extended reals both are literally the same arrangement of sums and products — no factor is moved across a sum
  and nothing is cancelled — so the equality needs no finiteness of the inputs; the precondition is not opened.

  `StageSpec` states the two stage functions; `Payloads` reads each kernel body as its stage function of the loaded
  blocks; `SumBlocks` and `ProductBlocks` show each point writes back its block of the whole-array stage function and
  that the blocks cover the result; `StagesRun` reads the run of the two stages in sequence; `RefValue` reads the
  reference. The frames of the two kernel programs are the generated ones; the reference's frame is its generated run
  with the result dropped; the idealization rewrote nothing, so there is nothing to preserve.
-/
import proofs.«163116_j54065048322517_2_alg».proof.Defs
import proofs.«163116_j54065048322517_2_alg».proof.Proof.Gen.Kernel
import proofs.«163116_j54065048322517_2_alg».proof.Proof.Gen.Kernel.Skeleton
import proofs.«163116_j54065048322517_2_alg».proof.Proof.Gen.Kernel.Launch
import proofs.«163116_j54065048322517_2_alg».proof.Proof.Gen.Kernel.Points
import proofs.«163116_j54065048322517_2_alg».proof.Proof.Gen.Kernel.Frame
import proofs.«163116_j54065048322517_2_alg».proof.Proof.Gen.KernelIdeal
import proofs.«163116_j54065048322517_2_alg».proof.Proof.Gen.KernelIdeal.Skeleton
import proofs.«163116_j54065048322517_2_alg».proof.Proof.Gen.KernelIdeal.Launch
import proofs.«163116_j54065048322517_2_alg».proof.Proof.Gen.KernelIdeal.Points
import proofs.«163116_j54065048322517_2_alg».proof.Proof.Gen.KernelIdeal.Frame
import proofs.«163116_j54065048322517_2_alg».proof.Proof.Gen.ReferenceIdeal
import proofs.«163116_j54065048322517_2_alg».proof.Proof.Gen.Pre_finite_inputs
import proofs.«163116_j54065048322517_2_alg».proof.Proof.Gen.ReferenceIdeal.Run
import proofs.«163116_j54065048322517_2_alg».proof.Proof.Gen.ReferenceIdeal.Read
import proofs.«163116_j54065048322517_2_alg».proof.Proof.RefValue
import proofs.«163116_j54065048322517_2_alg».proof.Proof.StagesRun
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments x, y, w, both programs end with the result at
    (Σ_i x[b, i] · Σ_k w[i, j, k]) · y[b, j]: the kernel by the run of its two stages, the reference by its run read one
    operation at a time. -/
theorem algebraic : Cert.algebraic_KernelIdeal_ReferenceIdeal := by
  intro m ρ m' ρ' _ hagree
  refine ⟨_, Cert.KernelIdeal.Stage.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v2_eq _ _ _).trans (Cert.ReferenceIdeal.Stage.reference_value _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
